-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S4000x128 : Shape := ⟨2, ![4000, 128]⟩
abbrev S1x128 : Shape := ⟨2, ![1, 128]⟩
abbrev S100000x1 : Shape := ⟨2, ![100000, 1]⟩
abbrev S100000 : Shape := ⟨1, ![100000]⟩

abbrev nBuf : Space → Nat
  | .hbm => 57
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S128x128, .bf16⟩
  | .hbm, ⟨30, _⟩ => ⟨S128x128, .bf16⟩
  | .hbm, ⟨31, _⟩ => ⟨S100000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S100000x128, .f32⟩
  | .hbm, ⟨43, _⟩ => ⟨S600000x1, .i32⟩
  | .hbm, ⟨44, _⟩ => ⟨S100000x128, .f32⟩
  | .hbm, ⟨45, _⟩ => ⟨S_, .i32⟩
  | .hbm, ⟨46, _⟩ => ⟨S_, .f32⟩
  | .hbm, ⟨47, _⟩ => ⟨S128x128, .f32⟩
  | .hbm, ⟨48, _⟩ => ⟨S128x128, .bf16⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S128x128, .bf16⟩
  | .hbm, ⟨53, _⟩ => ⟨S128x128, .bf16⟩
  | .hbm, ⟨54, _⟩ => ⟨S100000x128, .f32⟩
  | .hbm, ⟨55, _⟩ => ⟨S100000x1, .f32⟩
  | .hbm, ⟨56, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S128x128, .bf16⟩
  | .local _ .vmem, ⟨19, _⟩ => ⟨S128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_call0_v0 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  pads_S128x1_S128x128_000_01270 : S128x1.Pads (![0, 0] : Fin 2 → Nat) ![0, 127] ![0, 0] S128x128
  h_S_ : 0 < S_.numel
  pads_S1_S128_01270 : S1.Pads (![0] : Fin 1 → Nat) ![127] ![0] S128
  shapeCasts_S128_S128 : S128.ShapeCasts S128
  slices_S100000x128_S100000x1_0_0 : S100000x128.Slices ![0, 0] S100000x1
  shapeCasts_S100000x1_S100000 : S100000x1.ShapeCasts S100000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000x1 : Shape := ⟨2, ![100000, 1]⟩
abbrev S1x1 : Shape := ⟨2, ![1, 1]⟩
abbrev S100000 : Shape := ⟨1, ![100000]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S100000x128, .f32⟩
  | .hbm, ⟨52, _⟩ => ⟨S600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x1, .f32⟩
  | .hbm, ⟨67, _⟩ => ⟨S1x1, .f32⟩
  | .hbm, ⟨68, _⟩ => ⟨S100000x1, .f32⟩
  | .hbm, ⟨69, _⟩ => ⟨S100000x1, .f32⟩
  | .hbm, ⟨70, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Run.lean ====
/-
  The idealized kernel's run, with its result named.

  The program is nine segments: a stretch of host operations, the first region, five stretches, the second region, a last
  stretch. Every weakly fair execution from a memory with zero counters terminates without a fault, and in the final state
  every unscoped buffer of a core holds the contents the segments' fold leaves for it: the fold applies each stretch's
  operations in order and, across a region, replaces the region's output array by what the pipeline's write-backs leave.
  Read at the result buffer this names the result; read at an argument it walks back to the launch contents.
-/
import proofs.«165856_j5085241279117_1_alg».proof.Proof.Gen.KernelIdeal.Frame

set_option maxRecDepth 16384

noncomputable section

namespace Cert.Gin.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: every weakly fair execution terminates, nothing faulting, with the result buffer at the contents the
    segments' fold leaves for it and the twelve argument arrays as launched. -/
theorem run : θ_run defs (onTc (τ := τ) (main (F := F))) ⟨m, fun _ => 0, ρ⟩ (fun r => ∀ c : Dev nD,
      r.2.mem ((c.tc : Thread nD τ).loc main_v34) = W9 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v34 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.Gin.Run

end
-- ==== Proof.Mlp.lean ====
/-
  The row-wise network both programs compute, as functions on the extended reals.

  A graph-isomorphism layer acts on each node's row independently once the neighbours' sum is known: the row
  `x + a` (the node's features plus the aggregate of its in-neighbours) goes through a dense map, a rectifier and a second
  dense map. Stated here once, over a row of 128 entries; an array of `n` rows is then treated row by row, whatever `n`
  is (a block of 4000 rows or all 100000), which is what makes a tiling over rows invisible.
-/
import Idealize.ShloMosaic.Lib.ValueIdx
import Idealize.ShloMosaic.PureOps.Ideal

noncomputable section

namespace Cert.Gin

open Idealize.ShloMosaic Idealize.ShloMosaic.ValueIdx

/-- A dense map of a row of 128 entries into `c` entries: `h ↦ h · W + b`, entry by entry. -/
def dense {c : ℕ} (h : Fin 128 → EReal) (W : (⟨2, ![128, c]⟩ : Shape).Idx → EReal) (b : (⟨1, ![c]⟩ : Shape).Idx → EReal) :
    Fin c → EReal :=
  fun j => (∑ k : Fin 128, h k * W (ix2 k j)) + b (ix1 j)

/-- The two-layer perceptron of a row: a dense map, the rectifier `max · 0`, a second dense map. -/
def mlp (h : Fin 128 → EReal) (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal) : Fin 128 → EReal :=
  dense (fun k => max (dense h Wa ba k) 0) Wb bb

/-- Row `r` of the sum of two arrays of `n` rows. -/
def rowSum {n : ℕ} (X A : (⟨2, ![n, 128]⟩ : Shape).Idx → EReal) (r : Fin n) : Fin 128 → EReal :=
  fun l => X (ix2 r l) + A (ix2 r l)

/-- One layer on an array of `n` rows: entry `(r, j)` is entry `j` of the perceptron of row `r` of `X + A`. -/
def layer {n : ℕ} (X A : (⟨2, ![n, 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal) :
    (⟨2, ![n, 128]⟩ : Shape).Idx → EReal :=
  fun i => mlp (rowSum X A (i 0)) Wa ba Wb bb (i 1)

/-- A layer followed by a third dense map into `c` entries (the read-out), on an array of `n` rows. -/
def layerOut {n c : ℕ} (X A : (⟨2, ![n, 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (Wo : (⟨2, ![128, c]⟩ : Shape).Idx → EReal) (bo : (⟨1, ![c]⟩ : Shape).Idx → EReal) :
    (⟨2, ![n, c]⟩ : Shape).Idx → EReal :=
  fun i => dense (mlp (rowSum X A (i 0)) Wa ba Wb bb) Wo bo (i 1)

/-- A layer's entry depends on row `i 0` of its two arrays only: two pairs of arrays, of any numbers of rows, that agree
    on one row give the same entries along it. -/
theorem layer_row {n n' : ℕ} (X A : (⟨2, ![n, 128]⟩ : Shape).Idx → EReal) (X' A' : (⟨2, ![n', 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (r : Fin n) (r' : Fin n') (j : Fin 128)
    (hX : ∀ l : Fin 128, X (ix2 r l) = X' (ix2 r' l)) (hA : ∀ l : Fin 128, A (ix2 r l) = A' (ix2 r' l)) :
    layer X A Wa ba Wb bb (ix2 r j) = layer X' A' Wa ba Wb bb (ix2 r' j) := by
  show mlp (rowSum X A r) Wa ba Wb bb j = mlp (rowSum X' A' r') Wa ba Wb bb j
  have e : rowSum X A r = rowSum X' A' r' := funext fun l => by unfold rowSum; rw [hX l, hA l]
  rw [e]

/-- The same for a layer followed by the read-out. -/
theorem layerOut_row {n n' c : ℕ} (X A : (⟨2, ![n, 128]⟩ : Shape).Idx → EReal) (X' A' : (⟨2, ![n', 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (Wo : (⟨2, ![128, c]⟩ : Shape).Idx → EReal) (bo : (⟨1, ![c]⟩ : Shape).Idx → EReal)
    (r : Fin n) (r' : Fin n') (j : Fin c)
    (hX : ∀ l : Fin 128, X (ix2 r l) = X' (ix2 r' l)) (hA : ∀ l : Fin 128, A (ix2 r l) = A' (ix2 r' l)) :
    layerOut X A Wa ba Wb bb Wo bo (ix2 r j) = layerOut X' A' Wa ba Wb bb Wo bo (ix2 r' j) := by
  show dense (mlp (rowSum X A r) Wa ba Wb bb) Wo bo j = dense (mlp (rowSum X' A' r') Wa ba Wb bb) Wo bo j
  have e : rowSum X A r = rowSum X' A' r' := funext fun l => by unfold rowSum; rw [hX l, hA l]
  rw [e]

/-- A layer's entry under a change of everything: the rows agree along `r` and `r'`, the weights and biases are equal. -/
theorem layer_congr {n n' : ℕ} (X A : (⟨2, ![n, 128]⟩ : Shape).Idx → EReal) (X' A' : (⟨2, ![n', 128]⟩ : Shape).Idx → EReal)
    (Wa Wa' : (⟨2, ![128, 128]⟩ : Shape).Idx → EReal) (ba ba' : (⟨1, ![128]⟩ : Shape).Idx → EReal)
    (Wb Wb' : (⟨2, ![128, 128]⟩ : Shape).Idx → EReal) (bb bb' : (⟨1, ![128]⟩ : Shape).Idx → EReal)
    (r : Fin n) (r' : Fin n') (j : Fin 128)
    (hX : ∀ l : Fin 128, X (ix2 r l) = X' (ix2 r' l)) (hA : ∀ l : Fin 128, A (ix2 r l) = A' (ix2 r' l))
    (hWa : Wa = Wa') (hba : ba = ba') (hWb : Wb = Wb') (hbb : bb = bb') :
    layer X A Wa ba Wb bb (ix2 r j) = layer X' A' Wa' ba' Wb' bb' (ix2 r' j) := by
  subst hWa hba hWb hbb
  exact layer_row X A X' A' Wa ba Wb bb r r' j hX hA

/-- The same for a layer followed by the read-out. -/
theorem layerOut_congr {n n' c : ℕ} (X A : (⟨2, ![n, 128]⟩ : Shape).Idx → EReal) (X' A' : (⟨2, ![n', 128]⟩ : Shape).Idx → EReal)
    (Wa Wa' : (⟨2, ![128, 128]⟩ : Shape).Idx → EReal) (ba ba' : (⟨1, ![128]⟩ : Shape).Idx → EReal)
    (Wb Wb' : (⟨2, ![128, 128]⟩ : Shape).Idx → EReal) (bb bb' : (⟨1, ![128]⟩ : Shape).Idx → EReal)
    (Wo Wo' : (⟨2, ![128, c]⟩ : Shape).Idx → EReal) (bo bo' : (⟨1, ![c]⟩ : Shape).Idx → EReal)
    (r : Fin n) (r' : Fin n') (j : Fin c)
    (hX : ∀ l : Fin 128, X (ix2 r l) = X' (ix2 r' l)) (hA : ∀ l : Fin 128, A (ix2 r l) = A' (ix2 r' l))
    (hWa : Wa = Wa') (hba : ba = ba') (hWb : Wb = Wb') (hbb : bb = bb') (hWo : Wo = Wo') (hbo : bo = bo') :
    layerOut X A Wa ba Wb bb Wo bo (ix2 r j) = layerOut X' A' Wa' ba' Wb' bb' Wo' bo' (ix2 r' j) := by
  subst hWa hba hWb hbb hWo hbo
  exact layerOut_row X A X' A' Wa ba Wb bb Wo bo r r' j hX hA

end Cert.Gin

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.Body.lean ====
/-
  The two kernel bodies at an entry of their block.

  Each body loads a block of 4000 rows of the node array and of the aggregate, the weights and the biases whole, and
  stores one block of 4000 rows. Read on the extended reals, where rounding to a shorter float is the identity and the
  matrix unit accumulating into zero is the plain sum of products, entry `(r, j)` of the stored block is entry `j` of the
  perceptron of row `r` of the sum of the two loaded blocks (second body: followed by the read-out's dense map).
-/
import proofs.«165856_j5085241279117_1_alg».proof.Proof.Gen.KernelIdeal.Skeleton
import proofs.«165856_j5085241279117_1_alg».proof.Proof.Mlp
import proofs.«165856_j5085241279117_1_alg».proof.Proof.LibPlainDot
import Idealize.ShloMosaic.Lib.ValueLayout
import Idealize.ShloMosaic.PureOps.Ideal.Laws

noncomputable section

namespace Cert.Gin.Body

open Cert.KernelIdeal Cert.KernelIdeal.Gen Idealize.ShloMosaic Idealize.ShloMosaic.ValueIdx

/-- The bodies' contraction is the plain product of a 4000 by 128 block with a 128 by 128 matrix. -/
theorem dot_plain : dot_S4000x128_S128x128_S4000x128_1_0_0_1_n_n = DotDims.plain 4000 128 128 := rfl

/-- The matrix unit accumulating into zero, at entry `(r, j)`: the sum over `k` of `l (r, k) * w (k, j)`. -/
theorem mm_apply (l : FVec Ideal S4000x128 .bf16) (w : FVec Ideal S128x128 .bf16) (r : Fin 4000) (j : Fin 128) :
    matmul dot_S4000x128_S128x128_S4000x128_1_0_0_1_n_n none l w (constant (F := Ideal) S4000x128 .f32 0x00000000#32) (ix2 r j)
      = ∑ k : Fin 128, l (ix2 r k) * w (ix2 k j) :=
  Cert.Sage.matmul_plain_zero_apply none l w r j

/-- A bias of 128 entries, laid as one row and repeated down the block, reads at `(r, j)` its entry `j`. -/
theorem bias_apply (b : FVec Ideal S128 .f32) (r : Fin 4000) (j : Fin 128) :
    broadcastTo S4000x128 (shapeCast S1x128 b shapeCasts_S128_S1x128) broadcasts_S1x128_S4000x128 (ix2 r j) = b (ix1 j) :=
  (broadcastTo_1b_ab_apply _ broadcasts_S1x128_S4000x128 r j).trans (shapeCast_a_1a_apply b shapeCasts_S128_S1x128 0 j)

/-- The hidden row of a body: the first dense map and the rectifier, at entry `(r, k)`. -/
theorem hidden_apply (x0 x1 : FVec Ideal S4000x128 .f32) (w : FVec Ideal S128x128 .bf16) (b : FVec Ideal S128 .f32)
    (r : Fin 4000) (k : Fin 128) :
    maximumf (addf (matmul dot_S4000x128_S128x128_S4000x128_1_0_0_1_n_n none
        (truncf .bf16 (addf x0 x1) bitsLt_bf16_f32) w (constant (F := Ideal) S4000x128 .f32 0x00000000#32))
        (broadcastTo S4000x128 (shapeCast S1x128 b shapeCasts_S128_S1x128) broadcasts_S1x128_S4000x128))
      (broadcast S4000x128 (Scalar.ofBits (F := Ideal) .f32 0x00000000#32)) (ix2 r k)
      = max (Cert.Gin.dense (Cert.Gin.rowSum x0 x1 r) w b k) 0 := by
  show max (matmul dot_S4000x128_S128x128_S4000x128_1_0_0_1_n_n none
        (truncf .bf16 (addf x0 x1) bitsLt_bf16_f32) w (constant (F := Ideal) S4000x128 .f32 0x00000000#32) (ix2 r k)
      + broadcastTo S4000x128 (shapeCast S1x128 b shapeCasts_S128_S1x128) broadcasts_S1x128_S4000x128 (ix2 r k))
      (Ideal.ofBits .f32 0x00000000#32) = _
  rw [mm_apply, bias_apply, Ideal.ofBits_zero_f32]
  rfl

/-- The two dense maps with the rectifier between them, as the bodies spell them, at entry `(r, j)`: the layer of the two
    blocks. Rounding to the shorter float on the way into each product is the identity here. -/
theorem net_apply (x0 x1 : FVec Ideal S4000x128 .f32) (x2 : FVec Ideal S128x128 .bf16) (x3 : FVec Ideal S128 .f32)
    (x4 : FVec Ideal S128x128 .bf16) (x5 : FVec Ideal S128 .f32) (r : Fin 4000) (j : Fin 128) :
    addf (matmul dot_S4000x128_S128x128_S4000x128_1_0_0_1_n_n none
        (truncf .bf16
          (maximumf (addf (matmul dot_S4000x128_S128x128_S4000x128_1_0_0_1_n_n none
              (truncf .bf16 (addf x0 x1) bitsLt_bf16_f32) x2 (constant (F := Ideal) S4000x128 .f32 0x00000000#32))
              (broadcastTo S4000x128 (shapeCast S1x128 x3 shapeCasts_S128_S1x128) broadcasts_S1x128_S4000x128))
            (broadcast S4000x128 (Scalar.ofBits (F := Ideal) .f32 0x00000000#32)))
          bitsLt_bf16_f32)
        x4 (constant (F := Ideal) S4000x128 .f32 0x00000000#32))
      (broadcastTo S4000x128 (shapeCast S1x128 x5 shapeCasts_S128_S1x128) broadcasts_S1x128_S4000x128) (ix2 r j)
      = Cert.Gin.layer x0 x1 x2 x3 x4 x5 (ix2 r j) := by
  rw [addf_apply, mm_apply, bias_apply]
  show (∑ k : Fin 128, _ * x4 (ix2 k j)) + x5 (ix1 j)
    = (∑ k : Fin 128, max (Cert.Gin.dense (Cert.Gin.rowSum x0 x1 r) x2 x3 k) 0 * x4 (ix2 k j)) + x5 (ix1 j)
  refine congrArg (· + x5 (ix1 j)) (Finset.sum_congr rfl fun k _ => congrArg (· * x4 (ix2 k j)) ?_)
  exact hidden_apply x0 x1 x2 x3 r k

/-- FIRST BODY: entry `(r, j)` of the stored block is the layer of the two loaded blocks at `(r, j)`. -/
theorem pay0_apply (x0 x1 : Vec Ideal S4000x128 .f32) (x2 : Vec Ideal S128x128 .bf16) (x3 : Vec Ideal S128 .f32)
    (x4 : Vec Ideal S128x128 .bf16) (x5 : Vec Ideal S128 .f32) (r : Fin 4000) (j : Fin 128) :
    k0_pay1 x0 x1 x2 x3 x4 x5 (ix2 r j) = Cert.Gin.layer x0 x1 x2 x3 x4 x5 (ix2 r j) := by
  unfold k0_pay1
  rw [shapeCast_self, shapeCast_self, shapeCast_self]
  exact net_apply x0 x1 x2 x3 x4 x5 r j

/-- SECOND BODY: entry `(r, j)` of the stored block is the layer of the two loaded blocks followed by the dense map of the
    loaded read-out weights, at `(r, j)`. -/
theorem pay1_apply (x0 x1 : Vec Ideal S4000x128 .f32) (x2 : Vec Ideal S128x128 .bf16) (x3 : Vec Ideal S128 .f32)
    (x4 : Vec Ideal S128x128 .bf16) (x5 : Vec Ideal S128 .f32) (x6 : Vec Ideal S128x128 .bf16) (x7 : Vec Ideal S128 .f32)
    (r : Fin 4000) (j : Fin 128) :
    k1_pay1 x0 x1 x2 x3 x4 x5 x6 x7 (ix2 r j) = Cert.Gin.layerOut x0 x1 x2 x3 x4 x5 x6 x7 (ix2 r j) := by
  unfold k1_pay1
  rw [shapeCast_self, shapeCast_self, shapeCast_self, shapeCast_self, shapeCast_self, shapeCast_self]
  rw [addf_apply, mm_apply, bias_apply]
  show (∑ k : Fin 128, _ * x6 (ix2 k j)) + x7 (ix1 j)
    = (∑ k : Fin 128, Cert.Gin.layer x0 x1 x2 x3 x4 x5 (ix2 r k) * x6 (ix2 k j)) + x7 (ix1 j)
  refine congrArg (· + x7 (ix1 j)) (Finset.sum_congr rfl fun k _ => congrArg (· * x6 (ix2 k j)) ?_)
  exact net_apply x0 x1 x2 x3 x4 x5 r k

end Cert.Gin.Body

end
-- ==== Proof.Region0.lean ====
/-
  The first region's output array, whole.

  Grid point `t` of 25 stages rows `4000 t … 4000 t + 3999` of the node array and of the aggregate, the two weight matrices
  and the two biases whole, and writes back rows `4000 t … 4000 t + 3999` of the output. A layer's entry depends on one row
  of its two arrays only, so the block written at `t` is that block of the layer of the WHOLE arrays; the 25 blocks tile
  the 100000 rows, so the output array ends as the layer of the arrays the region was entered with.
-/
import proofs.«165856_j5085241279117_1_alg».proof.Proof.Gen.KernelIdeal.Frame
import proofs.«165856_j5085241279117_1_alg».proof.Proof.Body
import Idealize.ShloMosaic.Lib.Pipeline.Value

set_option maxRecDepth 16384

noncomputable section

namespace Cert.Gin.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The layer of the arrays the region is entered with. -/
abbrev whole (c : Dev nD) : S100000x128.Idx → EReal :=
  Cert.Gin.layer (V c main_arg0) (V c main_v13) (V c main_v14) (V c main_arg3) (V c main_v15) (V c main_arg5)

/-- The printed index maps over the 25 grid points: the three row windows sit at block row `t`, column block 0; the
    weights and biases at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_3.index t (0 : Fin 1) = 0 ∧ win0_5.index t (0 : Fin 1) = 0 :=
  (by decide +kernel : ∀ t : Fin grid0.N, _)

/-- Every grid point lies below 25. -/
theorem point_lt (t : Fin cfg0.N) : t.val < 25 := by have h := t.isLt; have e : cfg0.N = 25 := N_0; omega

/-- Entry `(r, j)` of the output block at point `t` is entry `(4000 t + r, j)` of the output array. -/
theorem emb_out (t : Fin cfg0.N) (r : Fin 4000) (j : Fin 128) (h : t.val * 4000 + r.val < 100000) :
    ((cfg0.win 6).blk t).view.emb (ix2 r j) = ix2 (⟨t.val * 4000 + r.val, h⟩ : Fin 100000) j := by
  obtain ⟨_, _, _, _, e0, e1, _⟩ := index_facts t
  funext a; apply Fin.ext
  match a with
  | ⟨0, _⟩ => show win0_6.index t (0 : Fin 2) * 4000 + 1 * r.val = t.val * 4000 + r.val; omega
  | ⟨1, _⟩ => show win0_6.index t (1 : Fin 2) * 128 + 1 * j.val = j.val; omega

/-- The node array's block at point `t`, at `(r, l)`, is the node array at `(4000 t + r, l)`. -/
theorem block_x (c : Dev nD) (t : Fin cfg0.N) (r : Fin 4000) (l : Fin 128) (h : t.val * 4000 + r.val < 100000) :
    iblk0 V c 0 t (ix2 r l) = V c main_arg0 (ix2 (⟨t.val * 4000 + r.val, h⟩ : Fin 100000) l) := by
  obtain ⟨e0, e1, _⟩ := index_facts t
  show V c main_arg0 (((cfg0.win 0).blk t).view.emb (ix2 r l)) = _
  refine congrArg (V c main_arg0) ?_
  funext a; apply Fin.ext
  match a with
  | ⟨0, _⟩ => show win0_0.index t (0 : Fin 2) * 4000 + 1 * r.val = t.val * 4000 + r.val; omega
  | ⟨1, _⟩ => show win0_0.index t (1 : Fin 2) * 128 + 1 * l.val = l.val; omega

/-- The aggregate's block at point `t`, at `(r, l)`, is the aggregate at `(4000 t + r, l)`. -/
theorem block_agg (c : Dev nD) (t : Fin cfg0.N) (r : Fin 4000) (l : Fin 128) (h : t.val * 4000 + r.val < 100000) :
    iblk0 V c 1 t (ix2 r l) = V c main_v13 (ix2 (⟨t.val * 4000 + r.val, h⟩ : Fin 100000) l) := by
  obtain ⟨_, _, e0, e1, _⟩ := index_facts t
  show V c main_v13 (((cfg0.win 1).blk t).view.emb (ix2 r l)) = _
  refine congrArg (V c main_v13) ?_
  funext a; apply Fin.ext
  match a with
  | ⟨0, _⟩ => show win0_1.index t (0 : Fin 2) * 4000 + 1 * r.val = t.val * 4000 + r.val; omega
  | ⟨1, _⟩ => show win0_1.index t (1 : Fin 2) * 128 + 1 * l.val = l.val; omega

/-- The first weight matrix is staged whole at every point. -/
theorem block_wa (c : Dev nD) (t : Fin cfg0.N) : iblk0 V c 2 t = V c main_v14 := by
  obtain ⟨_, _, _, _, _, _, e0, e1, _⟩ := index_facts t
  funext y
  show V c main_v14 (((cfg0.win 2).blk t).view.emb y) = _
  refine congrArg (V c main_v14) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight matrix is staged whole at every point. -/
theorem block_wb (c : Dev nD) (t : Fin cfg0.N) : iblk0 V c 4 t = V c main_v15 := by
  obtain ⟨_, _, _, _, _, _, _, _, e0, e1, _⟩ := index_facts t
  funext y
  show V c main_v15 (((cfg0.win 4).blk t).view.emb y) = _
  refine congrArg (V c main_v15) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The first bias is staged whole at every point. -/
theorem block_ba (c : Dev nD) (t : Fin cfg0.N) : iblk0 V c 3 t = V c main_arg3 := by
  obtain ⟨_, _, _, _, _, _, _, _, _, _, e0, _⟩ := index_facts t
  funext y
  show V c main_arg3 (((cfg0.win 3).blk t).view.emb y) = _
  refine congrArg (V c main_arg3) ?_
  funext a; apply Fin.ext
  match a with
  | ⟨0, _⟩ => show win0_3.index t (0 : Fin 1) * 128 + 1 * (y 0).val = (y 0).val; omega

/-- The second bias is staged whole at every point. -/
theorem block_bb (c : Dev nD) (t : Fin cfg0.N) : iblk0 V c 5 t = V c main_arg5 := by
  obtain ⟨_, _, _, _, _, _, _, _, _, _, _, e0⟩ := index_facts t
  funext y
  show V c main_arg5 (((cfg0.win 5).blk t).view.emb y) = _
  refine congrArg (V c main_arg5) ?_
  funext a; apply Fin.ext
  match a with
  | ⟨0, _⟩ => show win0_5.index t (0 : Fin 1) * 128 + 1 * (y 0).val = (y 0).val; omega

/-- WHAT POINT `t` WRITES BACK is block `t` of the layer of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero zeros2]
  simp only [View.ld_unit_zero (S := S4000x128) zeros2, View.ld_unit_zero (S := S128x128) zeros2, View.ld_unit_zero (S := S128) zeros1]
  funext y
  obtain ⟨r, j, rfl⟩ : ∃ (r : Fin 4000) (j : Fin 128), y = ix2 r j := ⟨y 0, y 1, eq_ix2 y⟩
  have ht := point_lt t
  have hr : t.val * 4000 + r.val < 100000 := by have := r.isLt; omega
  show k0_pay1 (iblk0 V c 0 t) (iblk0 V c 1 t) (iblk0 V c 2 t) (iblk0 V c 3 t) (iblk0 V c 4 t) (iblk0 V c 5 t) (ix2 r j)
    = whole V c (((cfg0.win 6).blk t).view.emb (ix2 r j))
  rw [emb_out t r j hr]
  refine (Cert.Gin.Body.pay0_apply (iblk0 V c 0 t) (iblk0 V c 1 t) (iblk0 V c 2 t) (iblk0 V c 3 t) (iblk0 V c 4 t) (iblk0 V c 5 t) r j).trans ?_
  exact Cert.Gin.layer_congr (iblk0 V c 0 t) (iblk0 V c 1 t) (V c main_arg0) (V c main_v13)
    (iblk0 V c 2 t) (V c main_v14) (iblk0 V c 3 t) (V c main_arg3) (iblk0 V c 4 t) (V c main_v15) (iblk0 V c 5 t) (V c main_arg5)
    r ⟨t.val * 4000 + r.val, hr⟩ j
    (fun l => block_x V c t r l hr) (fun l => block_agg V c t r l hr)
    (block_wa V c t) (block_ba V c t) (block_wb V c t) (block_bb V c t)

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v16).slice (win0_6.rect t)).set ↔ _
  rw [View.set_slice_whole, Rect.mem_set_unit]
  exact Iff.rfl

/-- The 25 blocks tile the 100000 rows: row `n` is in the block of point `n / 4000`. -/
theorem cover (i : S100000x128.Idx) :
    ∃ t : Fin cfg0.N, (cfg0.win 6).flush t = true ∧ i ∈ ((cfg0.win 6).blk t).view.set := by
  have h0 : (i 0).val < 100000 := (i 0).isLt
  have h1 : (i 1).val < 128 := (i 1).isLt
  have hN : cfg0.N = 25 := N_0
  have hlt : (i 0).val / 4000 < cfg0.N := by rw [hN]; omega
  obtain ⟨_, _, _, _, e0, e1, _⟩ := index_facts ⟨(i 0).val / 4000, hlt⟩
  have tv : (⟨(i 0).val / 4000, hlt⟩ : Fin cfg0.N).val = (i 0).val / 4000 := rfl
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    omega
  | ⟨1, _⟩ =>
    show win0_6.index ⟨(i 0).val / 4000, hlt⟩ (1 : Fin 2) * 128 ≤ (i 1).val
      ∧ (i 1).val < win0_6.index ⟨(i 0).val / 4000, hlt⟩ (1 : Fin 2) * 128 + 128
    omega

/-- THE OUTPUT ARRAY after the region is the layer of the arrays the region was entered with. -/
theorem final (c : Dev nD) : (dat0 V c).arrAt 6 cfg0.N = whole V c :=
  (dat0 V c).arrAt_eq_of_cover 6 (whole V c) (fun t _ => flushed_eq V c t) cover

end Cert.Gin.Region0

end
-- ==== Proof.Region1.lean ====
/-
  The second region's output array, whole.

  As in the first region, grid point `t` of 25 stages rows `4000 t … 4000 t + 3999` of the first layer's output and of its
  aggregate, and now three weight matrices and three biases whole (the last pair is the read-out's, widened to 128
  columns), and writes back rows `4000 t … 4000 t + 3999` of the output. The blocks tile the 100000 rows, so the output
  array ends as the layer with its read-out of the arrays the region was entered with.
-/
import proofs.«165856_j5085241279117_1_alg».proof.Proof.Gen.KernelIdeal.Frame
import proofs.«165856_j5085241279117_1_alg».proof.Proof.Body
import Idealize.ShloMosaic.Lib.Pipeline.Value

set_option maxRecDepth 16384

noncomputable section

namespace Cert.Gin.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The layer with its read-out, of the arrays the region is entered with. -/
abbrev whole (c : Dev nD) : S100000x128.Idx → EReal :=
  Cert.Gin.layerOut (V c main_v16) (V c main_v26) (V c main_v30) (V c main_arg7) (V c main_v31) (V c main_arg9)
    (V c main_v28) (V c main_v29)

/-- The printed index maps over the 25 grid points: the three row windows sit at block row `t`, column block 0; the
    weights and biases at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_6.index t (0 : Fin 2) = 0 ∧ win1_6.index t (1 : Fin 2) = 0
    ∧ win1_3.index t (0 : Fin 1) = 0 ∧ win1_5.index t (0 : Fin 1) = 0 ∧ win1_7.index t (0 : Fin 1) = 0 :=
  (by decide +kernel : ∀ t : Fin grid1.N, _)

/-- Every grid point lies below 25. -/
theorem point_lt (t : Fin cfg1.N) : t.val < 25 := by have h := t.isLt; have e : cfg1.N = 25 := N_1; omega

/-- Entry `(r, j)` of the output block at point `t` is entry `(4000 t + r, j)` of the output array. -/
theorem emb_out (t : Fin cfg1.N) (r : Fin 4000) (j : Fin 128) (h : t.val * 4000 + r.val < 100000) :
    ((cfg1.win 8).blk t).view.emb (ix2 r j) = ix2 (⟨t.val * 4000 + r.val, h⟩ : Fin 100000) j := by
  obtain ⟨_, _, _, _, e0, e1, _⟩ := index_facts t
  funext a; apply Fin.ext
  match a with
  | ⟨0, _⟩ => show win1_8.index t (0 : Fin 2) * 4000 + 1 * r.val = t.val * 4000 + r.val; omega
  | ⟨1, _⟩ => show win1_8.index t (1 : Fin 2) * 128 + 1 * j.val = j.val; omega

/-- The first layer's output block at point `t`, at `(r, l)`, is that array at `(4000 t + r, l)`. -/
theorem block_h (c : Dev nD) (t : Fin cfg1.N) (r : Fin 4000) (l : Fin 128) (h : t.val * 4000 + r.val < 100000) :
    iblk1 V c 0 t (ix2 r l) = V c main_v16 (ix2 (⟨t.val * 4000 + r.val, h⟩ : Fin 100000) l) := by
  obtain ⟨e0, e1, _⟩ := index_facts t
  show V c main_v16 (((cfg1.win 0).blk t).view.emb (ix2 r l)) = _
  refine congrArg (V c main_v16) ?_
  funext a; apply Fin.ext
  match a with
  | ⟨0, _⟩ => show win1_0.index t (0 : Fin 2) * 4000 + 1 * r.val = t.val * 4000 + r.val; omega
  | ⟨1, _⟩ => show win1_0.index t (1 : Fin 2) * 128 + 1 * l.val = l.val; omega

/-- The aggregate's block at point `t`, at `(r, l)`, is the aggregate at `(4000 t + r, l)`. -/
theorem block_agg (c : Dev nD) (t : Fin cfg1.N) (r : Fin 4000) (l : Fin 128) (h : t.val * 4000 + r.val < 100000) :
    iblk1 V c 1 t (ix2 r l) = V c main_v26 (ix2 (⟨t.val * 4000 + r.val, h⟩ : Fin 100000) l) := by
  obtain ⟨_, _, e0, e1, _⟩ := index_facts t
  show V c main_v26 (((cfg1.win 1).blk t).view.emb (ix2 r l)) = _
  refine congrArg (V c main_v26) ?_
  funext a; apply Fin.ext
  match a with
  | ⟨0, _⟩ => show win1_1.index t (0 : Fin 2) * 4000 + 1 * r.val = t.val * 4000 + r.val; omega
  | ⟨1, _⟩ => show win1_1.index t (1 : Fin 2) * 128 + 1 * l.val = l.val; omega

/-- The first weight matrix is staged whole at every point. -/
theorem block_wa (c : Dev nD) (t : Fin cfg1.N) : iblk1 V c 2 t = V c main_v30 := by
  obtain ⟨_, _, _, _, _, _, e0, e1, _⟩ := index_facts t
  funext y
  show V c main_v30 (((cfg1.win 2).blk t).view.emb y) = _
  refine congrArg (V c main_v30) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight matrix is staged whole at every point. -/
theorem block_wb (c : Dev nD) (t : Fin cfg1.N) : iblk1 V c 4 t = V c main_v31 := by
  obtain ⟨_, _, _, _, _, _, _, _, e0, e1, _⟩ := index_facts t
  funext y
  show V c main_v31 (((cfg1.win 4).blk t).view.emb y) = _
  refine congrArg (V c main_v31) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The widened read-out matrix is staged whole at every point. -/
theorem block_wo (c : Dev nD) (t : Fin cfg1.N) : iblk1 V c 6 t = V c main_v28 := by
  obtain ⟨_, _, _, _, _, _, _, _, _, _, e0, e1, _⟩ := index_facts t
  funext y
  show V c main_v28 (((cfg1.win 6).blk t).view.emb y) = _
  refine congrArg (V c main_v28) ?_
  funext a; apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- The first bias is staged whole at every point. -/
theorem block_ba (c : Dev nD) (t : Fin cfg1.N) : iblk1 V c 3 t = V c main_arg7 := by
  obtain ⟨_, _, _, _, _, _, _, _, _, _, _, _, e0, _⟩ := index_facts t
  funext y
  show V c main_arg7 (((cfg1.win 3).blk t).view.emb y) = _
  refine congrArg (V c main_arg7) ?_
  funext a; apply Fin.ext
  match a with
  | ⟨0, _⟩ => show win1_3.index t (0 : Fin 1) * 128 + 1 * (y 0).val = (y 0).val; omega

/-- The second bias is staged whole at every point. -/
theorem block_bb (c : Dev nD) (t : Fin cfg1.N) : iblk1 V c 5 t = V c main_arg9 := by
  obtain ⟨_, _, _, _, _, _, _, _, _, _, _, _, _, e0, _⟩ := index_facts t
  funext y
  show V c main_arg9 (((cfg1.win 5).blk t).view.emb y) = _
  refine congrArg (V c main_arg9) ?_
  funext a; apply Fin.ext
  match a with
  | ⟨0, _⟩ => show win1_5.index t (0 : Fin 1) * 128 + 1 * (y 0).val = (y 0).val; omega

/-- The widened read-out bias is staged whole at every point. -/
theorem block_bo (c : Dev nD) (t : Fin cfg1.N) : iblk1 V c 7 t = V c main_v29 := by
  obtain ⟨_, _, _, _, _, _, _, _, _, _, _, _, _, _, e0⟩ := index_facts t
  funext y
  show V c main_v29 (((cfg1.win 7).blk t).view.emb y) = _
  refine congrArg (V c main_v29) ?_
  funext a; apply Fin.ext
  match a with
  | ⟨0, _⟩ => show win1_7.index t (0 : Fin 1) * 128 + 1 * (y 0).val = (y 0).val; omega

/-- WHAT POINT `t` WRITES BACK is block `t` of the layer with its read-out of the whole arrays. -/
theorem flushed_eq (c : Dev nD) (t : Fin cfg1.N) :
    (dat1 V c).flushed 8 t = ((cfg1.win 8).blk t).view.read (Elt Ideal) (whole V c) := by
  show (cfg1.win 8).cut (grid1.coords t) ((dat1 V c).after 8 t) = _
  rw [after1_8]
  unfold out1_8
  rw [View.canon_unit_zero zeros2]
  simp only [View.ld_unit_zero (S := S4000x128) zeros2, View.ld_unit_zero (S := S128x128) zeros2, View.ld_unit_zero (S := S128) zeros1]
  funext y
  obtain ⟨r, j, rfl⟩ : ∃ (r : Fin 4000) (j : Fin 128), y = ix2 r j := ⟨y 0, y 1, eq_ix2 y⟩
  have ht := point_lt t
  have hr : t.val * 4000 + r.val < 100000 := by have := r.isLt; omega
  show k1_pay1 (iblk1 V c 0 t) (iblk1 V c 1 t) (iblk1 V c 2 t) (iblk1 V c 3 t) (iblk1 V c 4 t) (iblk1 V c 5 t)
      (iblk1 V c 6 t) (iblk1 V c 7 t) (ix2 r j)
    = whole V c (((cfg1.win 8).blk t).view.emb (ix2 r j))
  rw [emb_out t r j hr]
  refine (Cert.Gin.Body.pay1_apply (iblk1 V c 0 t) (iblk1 V c 1 t) (iblk1 V c 2 t) (iblk1 V c 3 t) (iblk1 V c 4 t) (iblk1 V c 5 t)
    (iblk1 V c 6 t) (iblk1 V c 7 t) r j).trans ?_
  exact Cert.Gin.layerOut_congr (iblk1 V c 0 t) (iblk1 V c 1 t) (V c main_v16) (V c main_v26)
    (iblk1 V c 2 t) (V c main_v30) (iblk1 V c 3 t) (V c main_arg7) (iblk1 V c 4 t) (V c main_v31) (iblk1 V c 5 t) (V c main_arg9)
    (iblk1 V c 6 t) (V c main_v28) (iblk1 V c 7 t) (V c main_v29)
    r ⟨t.val * 4000 + r.val, hr⟩ j
    (fun l => block_h V c t r l hr) (fun l => block_agg V c t r l hr)
    (block_wa V c t) (block_ba V c t) (block_wb V c t) (block_bb V c t) (block_wo V c t) (block_bo V c t)

/-- An index of the output array is in point `t`'s block iff each coordinate is in the block's range on its axis. -/
theorem mem_blk (t : Fin cfg1.N) (i : S100000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v32).slice (win1_8.rect t)).set ↔ _
  rw [View.set_slice_whole, Rect.mem_set_unit]
  exact Iff.rfl

/-- The 25 blocks tile the 100000 rows: row `n` is in the block of point `n / 4000`. -/
theorem cover (i : S100000x128.Idx) :
    ∃ t : Fin cfg1.N, (cfg1.win 8).flush t = true ∧ i ∈ ((cfg1.win 8).blk t).view.set := by
  have h0 : (i 0).val < 100000 := (i 0).isLt
  have h1 : (i 1).val < 128 := (i 1).isLt
  have hN : cfg1.N = 25 := N_1
  have hlt : (i 0).val / 4000 < cfg1.N := by rw [hN]; omega
  obtain ⟨_, _, _, _, e0, e1, _⟩ := index_facts ⟨(i 0).val / 4000, hlt⟩
  have tv : (⟨(i 0).val / 4000, hlt⟩ : Fin cfg1.N).val = (i 0).val / 4000 := rfl
  refine ⟨⟨(i 0).val / 4000, hlt⟩, flush1_8 _, ?_⟩
  rw [mem_blk]
  intro a
  match a with
  | ⟨0, _⟩ =>
    show win1_8.index ⟨(i 0).val / 4000, hlt⟩ (0 : Fin 2) * 4000 ≤ (i 0).val
      ∧ (i 0).val < win1_8.index ⟨(i 0).val / 4000, hlt⟩ (0 : Fin 2) * 4000 + 4000
    omega
  | ⟨1, _⟩ =>
    show win1_8.index ⟨(i 0).val / 4000, hlt⟩ (1 : Fin 2) * 128 ≤ (i 1).val
      ∧ (i 1).val < win1_8.index ⟨(i 0).val / 4000, hlt⟩ (1 : Fin 2) * 128 + 128
    omega

/-- THE OUTPUT ARRAY after the region is the layer with its read-out of the arrays the region was entered with. -/
theorem final (c : Dev nD) : (dat1 V c).arrAt 8 cfg1.N = whole V c :=
  (dat1 V c).arrAt_eq_of_cover 8 (whole V c) (fun t _ => flushed_eq V c t) cover

end Cert.Gin.Region1

end
-- ==== Proof.Walk.lean ====
/-
  The result buffer's contents, walked back to the launch memory.

  The last boundary's contents at the result buffer are a reshape of column 0 of the second region's output array. That
  array is the layer with its read-out of the second region's eight operand arrays; each of those is walked back through the
  five stretches of host operations between the regions: the first layer's output (the first region's output array, which no
  later operation writes), its aggregate along the edge list, the four weights and biases (arguments rounded to a shorter
  float, which is the identity on the extended reals), and the read-out's weight and bias widened with zeros to 128 columns.
  The first region's output array is the layer of its six operand arrays, walked back through the first stretch in the same
  way. Column 0 of the widened read-out is the read-out itself: the padding is never read.
-/
import proofs.«165856_j5085241279117_1_alg».proof.Proof.Gen.KernelIdeal.Frame
import proofs.«165856_j5085241279117_1_alg».proof.Proof.Region0
import proofs.«165856_j5085241279117_1_alg».proof.Proof.Region1
import Idealize.ShloMosaic.Lib.StableHlo.Run
import Idealize.ShloMosaic.Lib.KernelVsHost
import Idealize.ShloMosaic.Lib.ValueLayout

set_option maxRecDepth 16384

noncomputable section

namespace Cert.Gin.Walk

open Cert.KernelIdeal Cert.KernelIdeal.Gen Idealize.ShloMosaic Idealize.ShloMosaic.TcCoe Idealize.SL.Sem
open Idealize.ShloMosaic.StableHlo Idealize.ShloMosaic.ValueIdx

/-! ## The edge list and the aggregate -/

/-- Row 0 of the edge list: each edge's source node. -/
def srcIdx (E : (⟨S2x600000, .i32⟩ : BufTy).Contents (Elt Ideal)) : (⟨S600000, .i32⟩ : BufTy).Contents (Elt Ideal) :=
  shapeCast S600000 (extractStridedSlice S1x600000 ![0, 0] E slices_S2x600000_S1x600000_0_0) shapeCasts_S1x600000_S600000

/-- Row 1 of the edge list: each edge's target node. -/
def dstIdx (E : (⟨S2x600000, .i32⟩ : BufTy).Contents (Elt Ideal)) : (⟨S600000, .i32⟩ : BufTy).Contents (Elt Ideal) :=
  shapeCast S600000 (extractStridedSlice S1x600000 ![1, 0] E slices_S2x600000_S1x600000_1_0) shapeCasts_S1x600000_S600000

/-- The aggregate of an array of node rows along the edges: the rows gathered at the sources (a negative source counted
    from the end) and summed into the targets, from zero. Both programs build it with these same operations; nothing
    about it is opened. -/
def agg (s d : (⟨S600000, .i32⟩ : BufTy).Contents (Elt Ideal)) (X : (⟨S100000x128, .f32⟩ : BufTy).Contents (Elt Ideal)) :
    (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 d)
    (Host.gather gather_S100000x128_S600000x1_S600000x128_1_0_n_n_0_1_1128 X
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 100000#32))) s)))

variable (m : (ℓ : Loc nD τ sig) → Buf (Elt Ideal) ℓ) (ρ : Dev nD → PrngReg) (c : Dev nD)

/-! ## The first region's operands, at its entry -/

theorem entry_x : V1 m ρ c main_arg0 = (m ((c : Thread nD τ).loc main_arg0)) := by
  dsimp only [V1, W1, W0, hostOps0]; after_results <;> rfl
theorem entry_agg : V1 m ρ c main_v13 = agg (srcIdx (m ((c : Thread nD τ).loc main_arg1))) (dstIdx (m ((c : Thread nD τ).loc main_arg1))) (m ((c : Thread nD τ).loc main_arg0)) := by
  dsimp only [V1, W1, W0, hostOps0]; after_results <;> rfl
theorem entry_wa : (V1 m ρ c main_v14 : S128x128.Idx → EReal) = (m ((c : Thread nD τ).loc main_arg2)) := by
  dsimp only [V1, W1, W0, hostOps0]; after_results <;> rfl
theorem entry_ba : V1 m ρ c main_arg3 = (m ((c : Thread nD τ).loc main_arg3)) := by
  dsimp only [V1, W1, W0, hostOps0]; after_results <;> rfl
theorem entry_wb : (V1 m ρ c main_v15 : S128x128.Idx → EReal) = (m ((c : Thread nD τ).loc main_arg4)) := by
  dsimp only [V1, W1, W0, hostOps0]; after_results <;> rfl
theorem entry_bb : V1 m ρ c main_arg5 = (m ((c : Thread nD τ).loc main_arg5)) := by
  dsimp only [V1, W1, W0, hostOps0]; after_results <;> rfl

/-- The first layer's output, as a function of the launch memory. -/
abbrev hidden : S100000x128.Idx → EReal :=
  Cert.Gin.layer (m ((c : Thread nD τ).loc main_arg0)) (agg (srcIdx (m ((c : Thread nD τ).loc main_arg1))) (dstIdx (m ((c : Thread nD τ).loc main_arg1))) (m ((c : Thread nD τ).loc main_arg0))) (m ((c : Thread nD τ).loc main_arg2)) (m ((c : Thread nD τ).loc main_arg3)) (m ((c : Thread nD τ).loc main_arg4)) (m ((c : Thread nD τ).loc main_arg5))

/-- AFTER THE FIRST REGION its output array holds the first layer's output. -/
theorem after_first : W2 m ρ c (Proc.devRef .tc main_v16) = hidden m c := by
  refine (W2_arr m ρ c 6).trans ((Cert.Gin.Region0.final (V1 m ρ) c).trans ?_)
  show Cert.Gin.layer (V1 m ρ c main_arg0) (V1 m ρ c main_v13) (V1 m ρ c main_v14) (V1 m ρ c main_arg3)
    (V1 m ρ c main_v15) (V1 m ρ c main_arg5) = _
  rw [entry_x, entry_agg, entry_wa, entry_ba, entry_wb, entry_bb]

/-! ## What the first region leaves alone -/

theorem kept_src : W2 m ρ c (Proc.devRef .tc main_v1) = srcIdx (m ((c : Thread nD τ).loc main_arg1)) :=
  (W2_of_ne m ρ c main_v1 (by decide)).trans (by dsimp only [W1, W0, hostOps0]; after_results <;> rfl)
theorem kept_dst : W2 m ρ c (Proc.devRef .tc main_v3) = dstIdx (m ((c : Thread nD τ).loc main_arg1)) :=
  (W2_of_ne m ρ c main_v3 (by decide)).trans (by dsimp only [W1, W0, hostOps0]; after_results <;> rfl)
theorem kept_arg6 : W2 m ρ c (Proc.devRef .tc main_arg6) = (m ((c : Thread nD τ).loc main_arg6)) :=
  (W2_of_ne m ρ c main_arg6 (by decide)).trans (by dsimp only [W1, W0, hostOps0]; after_results <;> rfl)
theorem kept_arg7 : W2 m ρ c (Proc.devRef .tc main_arg7) = (m ((c : Thread nD τ).loc main_arg7)) :=
  (W2_of_ne m ρ c main_arg7 (by decide)).trans (by dsimp only [W1, W0, hostOps0]; after_results <;> rfl)
theorem kept_arg8 : W2 m ρ c (Proc.devRef .tc main_arg8) = (m ((c : Thread nD τ).loc main_arg8)) :=
  (W2_of_ne m ρ c main_arg8 (by decide)).trans (by dsimp only [W1, W0, hostOps0]; after_results <;> rfl)
theorem kept_arg9 : W2 m ρ c (Proc.devRef .tc main_arg9) = (m ((c : Thread nD τ).loc main_arg9)) :=
  (W2_of_ne m ρ c main_arg9 (by decide)).trans (by dsimp only [W1, W0, hostOps0]; after_results <;> rfl)
theorem kept_arg10 : W2 m ρ c (Proc.devRef .tc main_arg10) = (m ((c : Thread nD τ).loc main_arg10)) :=
  (W2_of_ne m ρ c main_arg10 (by decide)).trans (by dsimp only [W1, W0, hostOps0]; after_results <;> rfl)
theorem kept_arg11 : W2 m ρ c (Proc.devRef .tc main_arg11) = (m ((c : Thread nD τ).loc main_arg11)) :=
  (W2_of_ne m ρ c main_arg11 (by decide)).trans (by dsimp only [W1, W0, hostOps0]; after_results <;> rfl)

/-! ## The second region's operands, at its entry -/

theorem entry2_h : V7 m ρ c main_v16 = W2 m ρ c (Proc.devRef .tc main_v16) := by
  dsimp only [V7, W7, W6, W5, W4, W3, hostOps1, hostOps1_1, hostOps1_2, hostOps1_3, hostOps1_4]; after_results <;> rfl
theorem entry2_agg : V7 m ρ c main_v26
    = agg (W2 m ρ c (Proc.devRef .tc main_v1)) (W2 m ρ c (Proc.devRef .tc main_v3)) (W2 m ρ c (Proc.devRef .tc main_v16)) := by
  dsimp only [V7, W7, W6, W5, W4, W3, hostOps1, hostOps1_1, hostOps1_2, hostOps1_3, hostOps1_4]; after_results <;> rfl
theorem entry2_wa : (V7 m ρ c main_v30 : S128x128.Idx → EReal) = W2 m ρ c (Proc.devRef .tc main_arg6) := by
  dsimp only [V7, W7, W6, W5, W4, W3, hostOps1, hostOps1_1, hostOps1_2, hostOps1_3, hostOps1_4]; after_results <;> rfl
theorem entry2_ba : V7 m ρ c main_arg7 = W2 m ρ c (Proc.devRef .tc main_arg7) := by
  dsimp only [V7, W7, W6, W5, W4, W3, hostOps1, hostOps1_1, hostOps1_2, hostOps1_3, hostOps1_4]; after_results <;> rfl
theorem entry2_wb : (V7 m ρ c main_v31 : S128x128.Idx → EReal) = W2 m ρ c (Proc.devRef .tc main_arg8) := by
  dsimp only [V7, W7, W6, W5, W4, W3, hostOps1, hostOps1_1, hostOps1_2, hostOps1_3, hostOps1_4]; after_results <;> rfl
theorem entry2_bb : V7 m ρ c main_arg9 = W2 m ρ c (Proc.devRef .tc main_arg9) := by
  dsimp only [V7, W7, W6, W5, W4, W3, hostOps1, hostOps1_1, hostOps1_2, hostOps1_3, hostOps1_4]; after_results <;> rfl

/-- The read-out's weight column widened with zero columns to 128. -/
abbrev widenW (wo : (⟨S128x1, .f32⟩ : BufTy).Contents (Elt Ideal)) : (⟨S128x128, .f32⟩ : BufTy).Contents (Elt Ideal) :=
  pad S128x128 ![0, 0] ![0, 127] ![0, 0] wo (sitofp (F := Ideal) .f32 (constantI S_ 32 0#32)) pads_S128x1_S128x128_000_01270 h_S_

/-- The read-out's one bias entry widened with zeros to 128. -/
abbrev widenB (bo : (⟨S1, .f32⟩ : BufTy).Contents (Elt Ideal)) : (⟨S128, .f32⟩ : BufTy).Contents (Elt Ideal) :=
  pad S128 ![0] ![127] ![0] bo (sitofp (F := Ideal) .f32 (constantI S_ 32 0#32)) pads_S1_S128_01270 h_S_

theorem entry2_wo : (V7 m ρ c main_v28 : S128x128.Idx → EReal) = widenW (W2 m ρ c (Proc.devRef .tc main_arg10)) := by
  dsimp only [V7, W7, W6, W5, W4, W3, hostOps1, hostOps1_1, hostOps1_2, hostOps1_3, hostOps1_4]; after_results <;> rfl
theorem entry2_bo : V7 m ρ c main_v29 = widenB (W2 m ρ c (Proc.devRef .tc main_arg11)) := by
  dsimp only [V7, W7, W6, W5, W4, W3, hostOps1, hostOps1_1, hostOps1_2, hostOps1_3, hostOps1_4]; after_results <;> rfl

/-! ## The second region's output and the result -/

/-- AFTER THE SECOND REGION its output array holds the second layer with the widened read-out, of the first layer's
    output and its aggregate. -/
theorem after_second : W8 m ρ c (Proc.devRef .tc main_v32)
    = Cert.Gin.layerOut (hidden m c) (agg (srcIdx (m ((c : Thread nD τ).loc main_arg1))) (dstIdx (m ((c : Thread nD τ).loc main_arg1))) (hidden m c))
        (m ((c : Thread nD τ).loc main_arg6)) (m ((c : Thread nD τ).loc main_arg7)) (m ((c : Thread nD τ).loc main_arg8)) (m ((c : Thread nD τ).loc main_arg9)) (widenW (m ((c : Thread nD τ).loc main_arg10))) (widenB (m ((c : Thread nD τ).loc main_arg11))) := by
  refine (W8_arr m ρ c 8).trans ((Cert.Gin.Region1.final (V7 m ρ) c).trans ?_)
  show Cert.Gin.layerOut (V7 m ρ c main_v16) (V7 m ρ c main_v26) (V7 m ρ c main_v30) (V7 m ρ c main_arg7)
    (V7 m ρ c main_v31) (V7 m ρ c main_arg9) (V7 m ρ c main_v28) (V7 m ρ c main_v29) = _
  rw [entry2_h, entry2_agg, entry2_wa, entry2_ba, entry2_wb, entry2_bb, entry2_wo, entry2_bo, after_first, kept_src, kept_dst,
    kept_arg6, kept_arg7, kept_arg8, kept_arg9, kept_arg10, kept_arg11]

/-- The result buffer is the second region's output array cut to its column 0 and laid as one axis. -/
theorem result_at : W9 m ρ c (Proc.devRef .tc main_v34)
    = shapeCast S100000 (extractStridedSlice S100000x1 ![0, 0] (W8 m ρ c (Proc.devRef .tc main_v32)) slices_S100000x128_S100000x1_0_0)
        shapeCasts_S100000x1_S100000 := by
  dsimp only [W9, hostOps2]; after_results <;> rfl

/-- Entry 0 of the dense map into 128 entries with the widened read-out is the read-out's one entry: the widened weight's
    column 0 is the weight column, the widened bias's entry 0 the bias, and the zero padding is not read. -/
theorem dense_widen (h : Fin 128 → EReal) (wo : (⟨S128x1, .f32⟩ : BufTy).Contents (Elt Ideal))
    (bo : (⟨S1, .f32⟩ : BufTy).Contents (Elt Ideal)) :
    Cert.Gin.dense h (widenW wo) (widenB bo) (0 : Fin 128) = Cert.Gin.dense h wo bo (0 : Fin 1) := by
  have ew : ∀ k : Fin 128, widenW wo (ix2 k (0 : Fin 128)) = wo (ix2 k (0 : Fin 1)) := fun k =>
    pad_apply_of_inside ![0, 0] ![0, 127] ![0, 0] wo _ pads_S128x1_S128x128_000_01270 h_S_ (ix2 k (0 : Fin 128)) (ix2 k (0 : Fin 1))
      (fun a => by
        match a with
        | ⟨0, _⟩ => show k.val = 0 + k.val * (0 + 1); omega
        | ⟨1, _⟩ => show 0 = 0 + 0 * (0 + 1); omega)
  have eb : widenB bo (ix1 (0 : Fin 128)) = bo (ix1 (0 : Fin 1)) :=
    pad_apply_of_inside ![0] ![127] ![0] bo _ pads_S1_S128_01270 h_S_ (ix1 (0 : Fin 128)) (ix1 (0 : Fin 1))
      (fun a => by
        match a with
        | ⟨0, _⟩ => show 0 = 0 + 0 * (0 + 1); omega)
  show (∑ k : Fin 128, h k * widenW wo (ix2 k (0 : Fin 128))) + widenB bo (ix1 (0 : Fin 128))
    = (∑ k : Fin 128, h k * wo (ix2 k (0 : Fin 1))) + bo (ix1 (0 : Fin 1))
  rw [eb]
  exact congrArg (· + bo (ix1 (0 : Fin 1))) (Finset.sum_congr rfl fun k _ => by rw [ew])

/-- THE RESULT: at node `r` the read-out of the second layer on the first layer's output plus its aggregate. -/
theorem result : W9 m ρ c (Proc.devRef .tc main_v34)
    = fun i => Cert.Gin.layerOut (hidden m c) (agg (srcIdx (m ((c : Thread nD τ).loc main_arg1))) (dstIdx (m ((c : Thread nD τ).loc main_arg1))) (hidden m c))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (i 0) (0 : Fin 1)) := by
  rw [result_at, after_second]
  funext i
  obtain ⟨r, rfl⟩ : ∃ r : Fin 100000, i = ix1 r := ⟨i 0, eq_ix1 i⟩
  refine (shapeCast_apply _ shapeCasts_S100000x1_S100000 (ix1 r) (ix2 r (0 : Fin 1)) (by
    rw [Shape.rowMajor_val_two, Shape.rowMajor_val_one]; show r.val * 1 + 0 = r.val; omega)).trans ?_
  refine (slice2_axis1_apply 0 _ slices_S100000x128_S100000x1_0_0 r (0 : Fin 1) (0 : Fin 128) rfl).trans ?_
  exact dense_widen _ (m ((c : Thread nD τ).loc main_arg10)) (m ((c : Thread nD τ).loc main_arg11))

end Cert.Gin.Walk

end
-- ==== Proof.RefNet.lean ====
/-
  The reference program read as the row-wise network.

  The reference computes each layer by whole-array operations: add the aggregate, a matrix product, a broadcast bias, a
  rectifier against a broadcast zero, a second matrix product and bias; after the second layer a product with a single
  column, a bias and a reshape. Read entry by entry, every one of these depends on one row of its operand only, so a layer
  is the row-wise perceptron `Cert.Gin.mlp` applied to the row of `x + aggregate`, and the result at node `r` is the
  read-out of row `r`. The two aggregates are left as the arrays the program builds; nothing about them is used.
-/
import proofs.«165856_j5085241279117_1_alg».proof.Proof.Gen.ReferenceIdeal.Read
import proofs.«165856_j5085241279117_1_alg».proof.Proof.Mlp
import proofs.«165856_j5085241279117_1_alg».proof.Proof.LibPlainDot

noncomputable section

namespace Cert.Gin.Ref

open Cert.ReferenceIdeal Cert.ReferenceIdeal.Gen Cert.ReferenceIdeal.Read Idealize.ShloMosaic Idealize.ShloMosaic.ValueIdx

/-! ## A layer from its stages -/

/-- Six arrays of `n` rows built one from the other as the reference builds them (the sum `S = X + A`, the product
    `P = S · Wa`, the biased `Q = P + ba`, the rectified `R = max Q 0`, the product `D = R · Wb`, the biased
    `H = D + bb`) end in the layer of `X` and `A`: entry `(r, j)` of `H` unfolds to the perceptron of row `r`. -/
theorem layer_of_stages {n : ℕ} (X A : (⟨2, ![n, 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (S P Q R D H : (⟨2, ![n, 128]⟩ : Shape).Idx → EReal)
    (hS : ∀ (r : Fin n) (l : Fin 128), S (ix2 r l) = X (ix2 r l) + A (ix2 r l))
    (hP : ∀ (r : Fin n) (k : Fin 128), P (ix2 r k) = ∑ l : Fin 128, S (ix2 r l) * Wa (ix2 l k))
    (hQ : ∀ (r : Fin n) (k : Fin 128), Q (ix2 r k) = P (ix2 r k) + ba (ix1 k))
    (hR : ∀ (r : Fin n) (k : Fin 128), R (ix2 r k) = max (Q (ix2 r k)) 0)
    (hD : ∀ (r : Fin n) (j : Fin 128), D (ix2 r j) = ∑ k : Fin 128, R (ix2 r k) * Wb (ix2 k j))
    (hH : ∀ (r : Fin n) (j : Fin 128), H (ix2 r j) = D (ix2 r j) + bb (ix1 j)) :
    H = layer X A Wa ba Wb bb := by
  funext i
  obtain ⟨r, j, rfl⟩ : ∃ (r : Fin n) (j : Fin 128), i = ix2 r j := ⟨i 0, i 1, eq_ix2 i⟩
  have eP : ∀ k : Fin 128, P (ix2 r k) = ∑ l : Fin 128, (X (ix2 r l) + A (ix2 r l)) * Wa (ix2 l k) := fun k =>
    (hP r k).trans (Finset.sum_congr rfl fun l _ => by rw [hS])
  have eD : D (ix2 r j)
      = ∑ k : Fin 128, max ((∑ l : Fin 128, (X (ix2 r l) + A (ix2 r l)) * Wa (ix2 l k)) + ba (ix1 k)) 0 * Wb (ix2 k j) :=
    (hD r j).trans (Finset.sum_congr rfl fun k _ => by rw [hR, hQ, eP])
  rw [hH, eD]
  rfl

/-- A layer `H` followed by a product with `Wo` and a bias `bo`, entry by entry, is the layer with its read-out. -/
theorem layerOut_of_stages {n c : ℕ} (X A : (⟨2, ![n, 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (Wo : (⟨2, ![128, c]⟩ : Shape).Idx → EReal) (bo : (⟨1, ![c]⟩ : Shape).Idx → EReal)
    (H : (⟨2, ![n, 128]⟩ : Shape).Idx → EReal) (O : (⟨2, ![n, c]⟩ : Shape).Idx → EReal)
    (hH : H = layer X A Wa ba Wb bb)
    (hO : ∀ (r : Fin n) (j : Fin c), O (ix2 r j) = (∑ k : Fin 128, H (ix2 r k) * Wo (ix2 k j)) + bo (ix1 j)) :
    O = layerOut X A Wa ba Wb bb Wo bo := by
  funext i
  obtain ⟨r, j, rfl⟩ : ∃ (r : Fin n) (j : Fin c), i = ix2 r j := ⟨i 0, i 1, eq_ix2 i⟩
  rw [hO, hH]
  rfl

/-! ## The reference's stages, entry by entry -/

/-- The rectifier's second operand in the first layer is the zero array. -/
theorem zero_first (i : S100000x128.Idx) : val_main_call0_v0 (F := Ideal) i = (0 : EReal) := by
  rw [val_main_call0_v0_apply, val_main_call0_cst_apply, Ideal.ofBits_def, Ideal.ofBits_zero_f32]

/-- The rectifier's second operand in the second layer is the zero array. -/
theorem zero_second (i : S100000x128.Idx) : val_main_call1_v0 (F := Ideal) i = (0 : EReal) := by
  rw [val_main_call1_v0_apply, val_main_call1_cst_apply, Ideal.ofBits_def, Ideal.ofBits_zero_f32]

/-- A bias of 128 entries broadcast over the rows: entry `(r, k)` is entry `k` of the bias. Stated for the four biases
    of the two layers. -/
theorem bias_first_a (x3 : (⟨S128, .f32⟩ : BufTy).Contents (Elt Ideal)) (r : Fin 100000) (k : Fin 128) :
    val_main_v17 (F := Ideal) x3 (ix2 r k) = x3 (ix1 k) := by
  rw [val_main_v17_apply, val_main_v16_apply]
  exact congrArg x3 (funext fun a => Fin.ext (by match a with | ⟨0, _⟩ => rfl))

theorem bias_first_b (x5 : (⟨S128, .f32⟩ : BufTy).Contents (Elt Ideal)) (r : Fin 100000) (k : Fin 128) :
    val_main_v22 (F := Ideal) x5 (ix2 r k) = x5 (ix1 k) := by
  rw [val_main_v22_apply, val_main_v21_apply]
  exact congrArg x5 (funext fun a => Fin.ext (by match a with | ⟨0, _⟩ => rfl))

theorem bias_second_a (x7 : (⟨S128, .f32⟩ : BufTy).Contents (Elt Ideal)) (r : Fin 100000) (k : Fin 128) :
    val_main_v37 (F := Ideal) x7 (ix2 r k) = x7 (ix1 k) := by
  rw [val_main_v37_apply, val_main_v36_apply]
  exact congrArg x7 (funext fun a => Fin.ext (by match a with | ⟨0, _⟩ => rfl))

theorem bias_second_b (x9 : (⟨S128, .f32⟩ : BufTy).Contents (Elt Ideal)) (r : Fin 100000) (k : Fin 128) :
    val_main_v42 (F := Ideal) x9 (ix2 r k) = x9 (ix1 k) := by
  rw [val_main_v42_apply, val_main_v41_apply]
  exact congrArg x9 (funext fun a => Fin.ext (by match a with | ⟨0, _⟩ => rfl))

/-- The read-out's bias has one entry, broadcast to every node. -/
theorem bias_out (x11 : (⟨S1, .f32⟩ : BufTy).Contents (Elt Ideal)) (r : Fin 100000) (j : Fin 1) :
    val_main_v46 (F := Ideal) x11 (ix2 r j) = x11 (ix1 j) := by
  rw [val_main_v46_apply, val_main_v45_apply]
  refine congrArg x11 (funext fun a => Fin.ext ?_)
  match a with
  | ⟨0, _⟩ => exact (Nat.lt_one_iff.mp j.isLt).symm

/-! ## The two layers and the result -/

/-- The first layer's output is the row-wise perceptron of x plus its aggregate. -/
theorem hidden_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v23 (F := Ideal) x0 x1 x2 x3 x4 x5 = Cert.Gin.layer x0 (val_main_v13 (F := Ideal) x0 x1) x2 x3 x4 x5 :=
  layer_of_stages x0 (val_main_v13 (F := Ideal) x0 x1) x2 x3 x4 x5
    (val_main_v14 (F := Ideal) x0 x1) (val_main_v15 (F := Ideal) x0 x1 x2) (val_main_v18 (F := Ideal) x0 x1 x2 x3)
    (val_main_v19 (F := Ideal) x0 x1 x2 x3) (val_main_v20 (F := Ideal) x0 x1 x2 x3 x4)
    (val_main_v23 (F := Ideal) x0 x1 x2 x3 x4 x5)
    (fun _ _ => rfl)
    (fun r k => Cert.Sage.dotGeneral_plain_apply none .single (val_main_v14 (F := Ideal) x0 x1) x2 r k)
    (fun r k => by rw [val_main_v18_apply, Ideal.addf_def, bias_first_a])
    (fun r k => by rw [val_main_v19_apply, Ideal.maximumf_def, zero_first])
    (fun r j => Cert.Sage.dotGeneral_plain_apply none .single (val_main_v19 (F := Ideal) x0 x1 x2 x3) x4 r j)
    (fun r j => by rw [val_main_v23_apply, Ideal.addf_def, bias_first_b])

/-- The second layer's output is the row-wise perceptron of the first layer's output plus its aggregate. -/
theorem second_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v43 (F := Ideal) x0 x1 x2 x3 x4 x5 x6 x7 x8 x9
      = Cert.Gin.layer (val_main_v23 (F := Ideal) x0 x1 x2 x3 x4 x5) (val_main_v33 (F := Ideal) x0 x1 x2 x3 x4 x5) x6 x7 x8 x9 :=
  layer_of_stages (val_main_v23 (F := Ideal) x0 x1 x2 x3 x4 x5) (val_main_v33 (F := Ideal) x0 x1 x2 x3 x4 x5) x6 x7 x8 x9
    (val_main_v34 (F := Ideal) x0 x1 x2 x3 x4 x5) (val_main_v35 (F := Ideal) x0 x1 x2 x3 x4 x5 x6)
    (val_main_v38 (F := Ideal) x0 x1 x2 x3 x4 x5 x6 x7) (val_main_v39 (F := Ideal) x0 x1 x2 x3 x4 x5 x6 x7)
    (val_main_v40 (F := Ideal) x0 x1 x2 x3 x4 x5 x6 x7 x8) (val_main_v43 (F := Ideal) x0 x1 x2 x3 x4 x5 x6 x7 x8 x9)
    (fun _ _ => rfl)
    (fun r k => Cert.Sage.dotGeneral_plain_apply none .single (val_main_v34 (F := Ideal) x0 x1 x2 x3 x4 x5) x6 r k)
    (fun r k => by rw [val_main_v38_apply, Ideal.addf_def, bias_second_a])
    (fun r k => by rw [val_main_v39_apply, Ideal.maximumf_def, zero_second])
    (fun r j => Cert.Sage.dotGeneral_plain_apply none .single (val_main_v39 (F := Ideal) x0 x1 x2 x3 x4 x5 x6 x7) x8 r j)
    (fun r j => by rw [val_main_v43_apply, Ideal.addf_def, bias_second_b])

/-- The result at node r is the read-out (column 0 of a dense map into one entry) of the second layer on the first layer's output plus its aggregate. -/
theorem result_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) :
    val_main_v48 (F := Ideal) x0 x1 x2 x3 x4 x5 x6 x7 x8 x9 x10 x11
      = fun i => Cert.Gin.layerOut (val_main_v23 (F := Ideal) x0 x1 x2 x3 x4 x5) (val_main_v33 (F := Ideal) x0 x1 x2 x3 x4 x5) x6 x7 x8 x9 x10 x11 (ix2 (i 0) (0 : Fin 1)) := by
  have out : val_main_v47 (F := Ideal) x0 x1 x2 x3 x4 x5 x6 x7 x8 x9 x10 x11
      = Cert.Gin.layerOut (val_main_v23 (F := Ideal) x0 x1 x2 x3 x4 x5) (val_main_v33 (F := Ideal) x0 x1 x2 x3 x4 x5) x6 x7 x8 x9 x10 x11 :=
    layerOut_of_stages (val_main_v23 (F := Ideal) x0 x1 x2 x3 x4 x5) (val_main_v33 (F := Ideal) x0 x1 x2 x3 x4 x5) x6 x7 x8 x9 x10 x11
      (val_main_v43 (F := Ideal) x0 x1 x2 x3 x4 x5 x6 x7 x8 x9) (val_main_v47 (F := Ideal) x0 x1 x2 x3 x4 x5 x6 x7 x8 x9 x10 x11)
      (second_eq x0 x1 x2 x3 x4 x5 x6 x7 x8 x9)
      (fun r j => by
        rw [val_main_v47_apply, Ideal.addf_def, bias_out]
        exact congrArg (· + x11 (ix1 j))
          (Cert.Sage.dotGeneral_plain_apply none .single (val_main_v43 (F := Ideal) x0 x1 x2 x3 x4 x5 x6 x7 x8 x9) x10 r j))
  funext i
  obtain ⟨r, rfl⟩ : ∃ r : Fin 100000, i = ix1 r := ⟨i 0, eq_ix1 i⟩
  rw [val_main_v48_apply, out]
  refine congrArg _ (funext fun a => Fin.ext ?_)
  match a with
  | ⟨0, _⟩ => exact Nat.div_one _
  | ⟨1, _⟩ => rfl

end Cert.Gin.Ref

end
-- ==== Proof.lean ====
/-
  A two-layer graph-isomorphism network with a linear read-out: the tiled kernel against the whole-array reference.

  Both programs aggregate each node's in-neighbours' rows along the edge list with the same gather and scatter-add, on the
  host; the kernel then runs each layer's perceptron in a pipelined region over 25 blocks of 4000 node rows, the reference
  as whole-array products. On the extended reals a layer acts on each node's row alone, so a block of rows of the layer is
  the layer of the block, and the 25 blocks tile the 100000 nodes. The kernel's second region also applies the read-out,
  widened with zero columns to 128 so that its store is full width, and the host keeps column 0: the padding is never read,
  and column 0 is the reference's product with the one read-out column plus its bias. Rounding to a shorter float before
  each product is the identity on the extended reals. No finiteness of the inputs is used: the two sides are the same sums
  of the same products, term by term.

  The idealized kernel is the kernel's own text read on the extended reals (no operation was rewritten), so the
  idealization claim is the true proposition.
-/
import proofs.«165856_j5085241279117_1_alg».proof.Defs
import proofs.«165856_j5085241279117_1_alg».proof.Proof.Gen.Kernel
import proofs.«165856_j5085241279117_1_alg».proof.Proof.Gen.Kernel.Skeleton
import proofs.«165856_j5085241279117_1_alg».proof.Proof.Gen.Kernel.Launch
import proofs.«165856_j5085241279117_1_alg».proof.Proof.Gen.Kernel.Points
import proofs.«165856_j5085241279117_1_alg».proof.Proof.Gen.Kernel.Frame
import proofs.«165856_j5085241279117_1_alg».proof.Proof.Gen.KernelIdeal
import proofs.«165856_j5085241279117_1_alg».proof.Proof.Gen.KernelIdeal.Skeleton
import proofs.«165856_j5085241279117_1_alg».proof.Proof.Gen.KernelIdeal.Launch
import proofs.«165856_j5085241279117_1_alg».proof.Proof.Gen.KernelIdeal.Points
import proofs.«165856_j5085241279117_1_alg».proof.Proof.Gen.KernelIdeal.Frame
import proofs.«165856_j5085241279117_1_alg».proof.Proof.Gen.ReferenceIdeal
import proofs.«165856_j5085241279117_1_alg».proof.Proof.Gen.Pre_finite_inputs
import proofs.«165856_j5085241279117_1_alg».proof.Proof.Gen.ReferenceIdeal.Run
import proofs.«165856_j5085241279117_1_alg».proof.Proof.Gen.ReferenceIdeal.Read
import proofs.«165856_j5085241279117_1_alg».proof.Proof.Run
import proofs.«165856_j5085241279117_1_alg».proof.Proof.Walk
import proofs.«165856_j5085241279117_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The two programs' aggregates are one function -/

/-- The reference's first aggregate is the aggregate of the node array along the edge list, as the kernel builds it. -/
theorem agg_first (x0 : (⟨Cert.ReferenceIdeal.S100000x128, .f32⟩ : BufTy).Contents (Elt Ideal))
    (x1 : (⟨Cert.ReferenceIdeal.S2x600000, .i32⟩ : BufTy).Contents (Elt Ideal)) :
    Cert.ReferenceIdeal.Read.val_main_v13 (F := Ideal) x0 x1
      = Cert.Gin.Walk.agg (Cert.Gin.Walk.srcIdx x1) (Cert.Gin.Walk.dstIdx x1) x0 := rfl

/-- The reference's second aggregate is the aggregate of its first layer's output along the same edge list. -/
theorem agg_second (x0 : (⟨Cert.ReferenceIdeal.S100000x128, .f32⟩ : BufTy).Contents (Elt Ideal))
    (x1 : (⟨Cert.ReferenceIdeal.S2x600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) :
    Cert.ReferenceIdeal.Read.val_main_v33 (F := Ideal) x0 x1 x2 x3 x4 x5
      = Cert.Gin.Walk.agg (Cert.Gin.Walk.srcIdx x1) (Cert.Gin.Walk.dstIdx x1)
          (Cert.ReferenceIdeal.Read.val_main_v23 (F := Ideal) x0 x1 x2 x3 x4 x5) := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result buffer and the reference's end equal: each is, at node `r`, the read-out of
    the second layer on the first layer's output plus its aggregate. -/
theorem algebraic : Cert.algebraic_KernelIdeal_ReferenceIdeal := by
  intro m ρ m' ρ' _ hagree
  refine ⟨fun c => Cert.KernelIdeal.Gen.W9 m ρ c (Proc.devRef .tc Cert.KernelIdeal.main_v34), Cert.Gin.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.Gin.Ref.result_eq, agg_second, Cert.Gin.Ref.hidden_eq, agg_first]
  obtain ⟨h0, h1, h2, h3, h4, h5, h6, h7, h8, h9, h10, h11⟩ := hagree c
  rw [h0, h1, h2, h3, h4, h5, h6, h7, h8, h9, h10, h11]
  exact (Cert.Gin.Walk.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
